-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S64x32 .f32) (main_arg7 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S64x64 : Shape := ⟨2, ![64, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 88
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S64x64, .f32⟩
  | .hbm, ⟨62, _⟩ => ⟨S1x64, .f32⟩
  | .hbm, ⟨63, _⟩ => ⟨S100000x64, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S1700000x1, .f32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S64x32_S64x32_S64x64_d1 : Shape.Concatenates [S64x32, S64x32] S64x64 1
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S100000x64_S100000x32_0_0 : S100000x64.Slices ![0, 0] S100000x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S100000x64_S100000x32_0_32 : S100000x64.Slices ![0, 32] S100000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x32, .f32⟩
  | .hbm, ⟨77, _⟩ => ⟨S1700000x1, .f32⟩
  | .hbm, ⟨78, _⟩ => ⟨S1700000x32, .f32⟩
  | .hbm, ⟨79, _⟩ => ⟨S1700000x32, .f32⟩
  | .hbm, ⟨80, _⟩ => ⟨S_, .f32⟩
  | .hbm, ⟨81, _⟩ => ⟨S100000x32, .f32⟩
  | .hbm, ⟨82, _⟩ => ⟨S1700000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x32, .f32⟩
  | .hbm, ⟨87, _⟩ => ⟨S100000x32, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x32, .f32⟩
  | .hbm, ⟨97, _⟩ => ⟨S1700000x1, .f32⟩
  | .hbm, ⟨98, _⟩ => ⟨S1700000x32, .f32⟩
  | .hbm, ⟨99, _⟩ => ⟨S1700000x32, .f32⟩
  | .hbm, ⟨100, _⟩ => ⟨S_, .f32⟩
  | .hbm, ⟨101, _⟩ => ⟨S100000x32, .f32⟩
  | .hbm, ⟨102, _⟩ => ⟨S1700000x1, .i32⟩
  | .hbm, ⟨103, _⟩ => ⟨S100000x32, .f32⟩
  | .hbm, ⟨104, _⟩ => ⟨S1x32, .f32⟩
  | .hbm, ⟨105, _⟩ => ⟨S100000x32, .f32⟩
  | .hbm, ⟨106, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
/-
  The idealized kernel's run with its two results named.

  @main is five segments: host operations, the first matrix-product region, host operations, the second
  region, host operations. The contents of every buffer at each boundary are a fold through the segments from the
  launch memory; the last boundary's contents `W5` are what every unscoped buffer holds when @main returns. So every
  weakly fair execution terminates with the two result buffers at `W5` read at their references, and with the
  argument arrays as launched.
-/
import proofs.«115067_j69329362092400_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run : θ_run defs (onTc (τ := τ) (main (F := F))) ⟨m, fun _ => 0, ρ⟩ (fun r => ∀ c : Dev nD,
      r.2.mem ((c.tc : Thread nD τ).loc main_v62) = W5 m ρ c (Proc.devRef .tc main_v62)
      ∧ r.2.mem ((c.tc : Thread nD τ).loc main_v66) = W5 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v62 (by decide)),
       h c _ (mem_uc main_v66 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Results

end
-- ==== Proof.Spec.lean ====
/-
  The two dense transforms of the network, as whole-array functions over the extended reals.

  `dense x W` is the matrix product: entry `(p, q)` is the sum over `k` of `x (p, k) · W (k, q)`.
  `reluDense agg bias W` is the hidden layer followed by a product: entry `(p, q)` is the sum over `k` of
  `max (agg (p, k) + bias (0, k)) 0 · W (k, q)`, the bias a `1 × c` row.
-/
import Idealize.ShloMosaic.PureOps.Ideal
import Idealize.ShloMosaic.Lib.ValueIdx

noncomputable section

open scoped BigOperators

namespace Cert.Gcn

open Idealize.ShloMosaic Idealize.ShloMosaic.ValueIdx

variable {a c b : Nat}

/-- The matrix product `x · W`. -/
def dense (x : FVec Ideal ⟨2, ![a, c]⟩ .f32) (W : FVec Ideal ⟨2, ![c, b]⟩ .f32) : FVec Ideal ⟨2, ![a, b]⟩ .f32 :=
  fun i => ∑ k : Fin c, x (ix2 (n0 := a) (i 0) k) * W (ix2 (n1 := b) k (i 1))

theorem dense_apply (x : FVec Ideal ⟨2, ![a, c]⟩ .f32) (W : FVec Ideal ⟨2, ![c, b]⟩ .f32) (p : Fin a) (q : Fin b) :
    dense x W (ix2 p q) = ∑ k : Fin c, x (ix2 p k) * W (ix2 k q) := rfl

/-- The hidden layer `max (agg + bias) 0` followed by the product with `W`. -/
def reluDense (agg : FVec Ideal ⟨2, ![a, c]⟩ .f32) (bias : FVec Ideal ⟨2, ![1, c]⟩ .f32) (W : FVec Ideal ⟨2, ![c, b]⟩ .f32) :
    FVec Ideal ⟨2, ![a, b]⟩ .f32 :=
  fun i => ∑ k : Fin c, max (agg (ix2 (n0 := a) (i 0) k) + bias (ix2 (0 : Fin 1) k)) (Ideal.ofBits .f32 0x00000000#32)
    * W (ix2 (n1 := b) k (i 1))

theorem reluDense_apply (agg : FVec Ideal ⟨2, ![a, c]⟩ .f32) (bias : FVec Ideal ⟨2, ![1, c]⟩ .f32)
    (W : FVec Ideal ⟨2, ![c, b]⟩ .f32) (p : Fin a) (q : Fin b) :
    reluDense agg bias W (ix2 p q)
      = ∑ k : Fin c, max (agg (ix2 p k) + bias (ix2 (0 : Fin 1) k)) (Ideal.ofBits .f32 0x00000000#32) * W (ix2 k q) := rfl

end Cert.Gcn

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Regions.lean ====
/-
  What each of the two regions leaves in its output array: one whole-array function of the arrays it reads.

  Each region runs over ten grid points; point `t` reads rows `10000·t … 10000·t + 9999` of its row-blocked
  input and all of its small operands, and writes the same rows of its output. The body computes a matrix product
  into a zero accumulator, so row `r` of the block written at point `t` is row `10000·t + r` of the product of the
  whole arrays; the ten blocks tile the output's 100000 rows, so after the region the output array is that product.
  The first region's product is `x · W`; the second's left operand is `max (agg + bias) 0`.
-/
import proofs.«115067_j69329362092400_1_alg».proof.Proof.Gen.KernelIdeal.Frame
import proofs.«115067_j69329362092400_1_alg».proof.Proof.Spec
import proofs.«115067_j69329362092400_1_alg».proof.Proof.LibPlainDot
import proofs.«115067_j69329362092400_1_alg».proof.Proof.LibRowBroadcasts
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem zero_offsets : (![0, 0] : Fin 2 → Nat) = fun _ => 0 := funext fun a => by fin_cases a <;> rfl

/-! ## The bodies' stored values at an index -/

/-- The first body stores the product of its two loaded blocks. -/
theorem stored0_apply (x0 : Vec Ideal S10000x128 .f32) (x1 : Vec Ideal S128x64 .f32) (r : Fin 10000) (q : Fin 64) :
    k0_pay1 x0 x1 (ix2 r q) = ∑ k : Fin 128, x0 (ix2 r k) * x1 (ix2 k q) := by
  unfold k0_pay1
  exact Cert.Lib.PlainDot.matmul_zero_apply dot_S10000x128_S128x64_S10000x64_1_0_0_1_n_n_wf none _ _ r q

/-- The second body stores the product of `max (block + bias row) 0` with the weights. -/
theorem stored1_apply (x0 : Vec Ideal S10000x64 .f32) (x1 : Vec Ideal S1x64 .f32) (x2 : Vec Ideal S64x64 .f32)
    (r : Fin 10000) (q : Fin 64) :
    k1_pay1 x0 x1 x2 (ix2 r q)
      = ∑ k : Fin 64, max (x0 (ix2 r k) + x1 (ix2 (0 : Fin 1) k)) (Ideal.ofBits .f32 0x00000000#32) * x2 (ix2 k q) := by
  unfold k1_pay1
  rw [shapeCast_self, shapeCast_self, shapeCast_self]
  refine (Cert.Lib.PlainDot.matmul_zero_apply dot_S10000x64_S64x64_S10000x64_1_0_0_1_n_n_wf none _ _ r q).trans ?_
  refine Finset.sum_congr rfl fun k _ => ?_
  rw [truncf_apply, truncf_apply, maximumf_apply, addf_apply, Cert.Lib.Rows.bcastRow_apply]
  rfl

variable (V : (c : Dev nD) → (b : Ref sig .tc) → Buf (Elt Ideal) ((c : Thread nD τ).loc b))

/-! ## The first region: `x · W1` -/

/-- The index maps over the grid: the row-blocked windows sit at block `t`, the weights at block 0. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the output is some point's. -/
theorem blocks_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the whole arrays. -/
theorem flushed0 (c : Dev nD) (t : Fin cfg0.N) :
    (dat0 V c).flushed 2 t = ((cfg0.win 2).blk t).view.read (Elt Ideal)
      (Cert.Gcn.dense (a := 100000) (c := 128) (b := 64) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := index_maps0 t
  funext j
  obtain ⟨r, q, rfl⟩ : ∃ (r : Fin 10000) (q : Fin 64), j = ix2 r q := ⟨j 0, j 1, eq_ix2 j⟩
  show k0_pay1 (iblk0 V c 0 t) (iblk0 V c 1 t) (ix2 r q)
    = Cert.Gcn.dense (a := 100000) (c := 128) (b := 64) (V c main_arg0) (V c main_arg2) (((cfg0.win 2).blk t).view.emb (ix2 r q))
  refine (stored0_apply _ _ r q).trans ?_
  unfold Cert.Gcn.dense
  refine Finset.sum_congr rfl fun k _ => ?_
  have hA : iblk0 V c 0 t (ix2 r k)
      = V c main_arg0 (ix2 (n0 := 100000) ((((cfg0.win 2).blk t).view.emb (ix2 r q)) 0) k) := by
    show V c main_arg0 (((cfg0.win 0).blk t).view.emb (ix2 r k)) = _
    refine congrArg (V c main_arg0) (funext fun a => Fin.ext ?_)
    match a with
    | ⟨0, _⟩ => show win0_0.index t (0 : Fin 2) * 10000 + 1 * r.val = win0_2.index t (0 : Fin 2) * 10000 + 1 * r.val; omega
    | ⟨1, _⟩ => show win0_0.index t (1 : Fin 2) * 128 + 1 * k.val = k.val; omega
  have hB : iblk0 V c 1 t (ix2 k q)
      = V c main_arg2 (ix2 (n1 := 64) k ((((cfg0.win 2).blk t).view.emb (ix2 r q)) 1)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hA, hB]

/-- An index of the output is in point `t`'s block iff each coordinate is in the block's range. -/
theorem mem_block0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v29).slice (win0_2.rect t)).set ↔ _
  rw [View.set_slice_whole, Rect.mem_set_unit]
  exact Iff.rfl

/-- The ten blocks tile the output: row `p` is in block `p / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := blocks_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- AFTER THE FIRST REGION its output array is the product of the arrays it read. -/
theorem array0 (c : Dev nD) :
    (dat0 V c).arrAt 2 cfg0.N = Cert.Gcn.dense (a := 100000) (c := 128) (b := 64) (V c main_arg0) (V c main_arg2) :=
  (dat0 V c).arrAt_eq_of_cover 2 _ (fun t _ => flushed0 V c t) cover0

/-! ## The second region: `max (agg + bias) 0 · Wcat` -/

theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem blocks_onto1 : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the hidden layer's product, of the whole arrays. -/
theorem flushed1 (c : Dev nD) (t : Fin cfg1.N) :
    (dat1 V c).flushed 3 t = ((cfg1.win 3).blk t).view.read (Elt Ideal)
      (Cert.Gcn.reluDense (a := 100000) (c := 64) (b := 64) (V c main_v42) (V c main_v44) (V c main_v43)) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S1x64) zero_offsets,
    View.ld_unit_zero (S := S64x64) zero_offsets]
  obtain ⟨e0, e1, e2, e3, e4, e5, e6, e7⟩ := index_maps1 t
  funext j
  obtain ⟨r, q, rfl⟩ : ∃ (r : Fin 10000) (q : Fin 64), j = ix2 r q := ⟨j 0, j 1, eq_ix2 j⟩
  show k1_pay1 (iblk1 V c 0 t) (iblk1 V c 1 t) (iblk1 V c 2 t) (ix2 r q)
    = Cert.Gcn.reluDense (a := 100000) (c := 64) (b := 64) (V c main_v42) (V c main_v44) (V c main_v43)
        (((cfg1.win 3).blk t).view.emb (ix2 r q))
  refine (stored1_apply _ _ _ r q).trans ?_
  unfold Cert.Gcn.reluDense
  refine Finset.sum_congr rfl fun k _ => ?_
  have hA : iblk1 V c 0 t (ix2 r k)
      = V c main_v42 (ix2 (n0 := 100000) ((((cfg1.win 3).blk t).view.emb (ix2 r q)) 0) k) := by
    show V c main_v42 (((cfg1.win 0).blk t).view.emb (ix2 r k)) = _
    refine congrArg (V c main_v42) (funext fun a => Fin.ext ?_)
    match a with
    | ⟨0, _⟩ => show win1_0.index t (0 : Fin 2) * 10000 + 1 * r.val = win1_3.index t (0 : Fin 2) * 10000 + 1 * r.val; omega
    | ⟨1, _⟩ => show win1_0.index t (1 : Fin 2) * 64 + 1 * k.val = k.val; omega
  have hb : iblk1 V c 1 t (ix2 (0 : Fin 1) k) = V c main_v44 (ix2 (0 : Fin 1) k) := by
    show V c main_v44 (((cfg1.win 1).blk t).view.emb (ix2 (0 : Fin 1) k)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have hW : iblk1 V c 2 t (ix2 k q)
      = V c main_v43 (ix2 (n1 := 64) k ((((cfg1.win 3).blk t).view.emb (ix2 r q)) 1)) := by
    show V c main_v43 (((cfg1.win 2).blk t).view.emb (ix2 k q)) = _
    refine congrArg (V c main_v43) (funext fun a => Fin.ext ?_)
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  rw [hA, hb, hW]

theorem mem_block1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v45).slice (win1_3.rect t)).set ↔ _
  rw [View.set_slice_whole, Rect.mem_set_unit]
  exact Iff.rfl

theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := blocks_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- AFTER THE SECOND REGION its output array is the hidden layer's product, of the arrays it read. -/
theorem array1 (c : Dev nD) :
    (dat1 V c).arrAt 3 cfg1.N
      = Cert.Gcn.reluDense (a := 100000) (c := 64) (b := 64) (V c main_v42) (V c main_v44) (V c main_v43) :=
  (dat1 V c).arrAt_eq_of_cover 3 _ (fun t _ => flushed1 V c t) cover1

end Cert.KernelIdeal.Regions

end
-- ==== Proof.KTerms.lean ====
/-
  The idealized kernel's host-side terms, named.

  `biasRow` is the hidden layer's bias as a 1 × 64 row; `wcat` the two output heads' 64 × 32 weight matrices side by
  side, a 64 × 64 matrix whose columns 0…31 are the first head's and 32…63 the second's; `srcCol` the column of
  source rows, a negative word wrapped once by the node count; `headOut` one round of message passing over the 64-wide
  features (rows gathered through the source column, scaled by the edge weights, accumulated through the destination
  column from zero), 32 of its columns from a given column offset on, plus that head's bias.
-/
import proofs.«115067_j69329362092400_1_alg».proof.KernelIdeal
import proofs.«115067_j69329362092400_1_alg».proof.Proof.Gen.KernelIdeal
import Idealize.ShloMosaic.PureOps.Ideal

noncomputable section

namespace Cert.KernelIdeal.Terms

open Cert.KernelIdeal Cert.KernelIdeal.Facts₀ Cert.KernelIdeal.Facts Idealize.ShloMosaic

/-- The bias vector as a 1 × 64 row. -/
def biasRow (b1 : FVec Ideal S64 .f32) : FVec Ideal S1x64 .f32 := shapeCast S1x64 b1 shapeCasts_S64_S1x64

/-- The two heads' weights side by side. -/
def wcat (wmu wls : FVec Ideal S64x32 .f32) : FVec Ideal S64x64 .f32 :=
  concatenate S64x64 1 [⟨S64x32, wmu⟩, ⟨S64x32, wls⟩] concatenates_S64x32_S64x32_S64x64_d1

/-- The column of source rows: a negative word is wrapped once by the node count. -/
def srcCol (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The column of destination rows. -/
def dstCol (dst : IVec S1700000 32) : IVec S1700000x1 32 :=
  broadcastInDim S1700000x1 ![0] bcast_S1700000_S1700000x1_0 dst

/-- One round of message passing over 64-wide features, from zero. -/
def round64 (feat : FVec Ideal S100000x64 .f32) (src dst : IVec S1700000 32) (wgt : FVec Ideal S1700000 .f32) :
    FVec Ideal S100000x64 .f32 :=
  Host.scatterAdd scatter_S100000x64_S1700000x1_S1700000x64_1_0_0_1
    (broadcastInDim S100000x64 ![] bcast_S_S100000x64 (constant S_ .f32 0x00000000#32))
    (dstCol dst)
    (mulf (Host.gather gather_S100000x64_S1700000x1_S1700000x64_1_0_n_n_0_1_164 feat (srcCol src))
      (broadcastInDim S1700000x64 ![0, 1] bcast_S1700000x1_S1700000x64_0_1
        (broadcastInDim S1700000x1 ![0] bcast_S1700000_S1700000x1_0 wgt)))

/-- A head's output: 32 columns of the round from column offset `off 1` on, plus the head's bias. -/
def headOut (off : Fin 2 → Nat) (hs : S100000x64.Slices off S100000x32) (feat : FVec Ideal S100000x64 .f32)
    (src dst : IVec S1700000 32) (wgt : FVec Ideal S1700000 .f32) (bias : FVec Ideal S32 .f32) :
    FVec Ideal S100000x32 .f32 :=
  addf (extractStridedSlice S100000x32 off (round64 feat src dst wgt) hs)
    (broadcastInDim S100000x32 ![0, 1] bcast_S1x32_S100000x32_0_1 (broadcastInDim S1x32 ![1] bcast_S32_S1x32_1 bias))

end Cert.KernelIdeal.Terms

end
-- ==== Proof.RefStages.lean ====
/-
  The reference's first matrix product, as a whole array, is `dense x W1`.
-/
import proofs.«115067_j69329362092400_1_alg».proof.Proof.Gen.ReferenceIdeal.Read
import proofs.«115067_j69329362092400_1_alg».proof.Proof.Spec

noncomputable section

open scoped BigOperators

namespace Cert.ReferenceIdeal.Stages

open Idealize.ShloMosaic Idealize.ShloMosaic.ValueIdx

/-- Entry `(p, q)` of the reference's `x · W1` is the sum over `k` of `x (p, k) · W1 (k, q)`. -/
theorem v29_eq_dense (x0 : FVec Ideal ⟨2, ![100000, 128]⟩ .f32) (x2 : FVec Ideal ⟨2, ![128, 64]⟩ .f32) :
    Cert.ReferenceIdeal.Read.val_main_v29 (F := Ideal) x0 x2 = Cert.Gcn.dense x0 x2 := by
  funext i
  obtain ⟨p, q, rfl⟩ : ∃ (p : Fin 100000) (q : Fin 64), i = ix2 p q := ⟨i 0, i 1, eq_ix2 i⟩
  rw [Cert.ReferenceIdeal.Read.val_main_v29_apply, Cert.Gcn.dense_apply]
  refine Finset.sum_congr rfl fun k _ => ?_
  have el : Cert.ReferenceIdeal.Read.lidx_main_v29 (ix2 p q) k = ix2 p k :=
    funext fun a => Fin.ext (by match a with | ⟨0, _⟩ => rfl | ⟨1, _⟩ => rfl)
  have er : Cert.ReferenceIdeal.Read.ridx_main_v29 (ix2 p q) k = ix2 k q :=
    funext fun a => Fin.ext (by match a with | ⟨0, _⟩ => rfl | ⟨1, _⟩ => rfl)
  rw [el, er]

end Cert.ReferenceIdeal.Stages

end
-- ==== Proof.KFold.lean ====
/-
  The contents of the kernel's buffers at each boundary of @main, read at the references the next segment uses.

  The launch memory is folded through the first stretch of host operations (the edge list's source and destination
  words with the self loops appended, and the edge weights), the first region (`x · W1`), the second stretch (one round
  of message passing; the two heads' weights side by side; the bias as a row), the second region (the hidden layer's
  product) and the last stretch (one more round, the two column slices, the biases). The edge words, the edge weights
  and the first round are, operation for operation, the reference's own stages; they are stated as such.
-/
import proofs.«115067_j69329362092400_1_alg».proof.Proof.Gen.KernelIdeal.Frame
import proofs.«115067_j69329362092400_1_alg».proof.Proof.Gen.ReferenceIdeal.Read
import proofs.«115067_j69329362092400_1_alg».proof.Proof.Regions
import proofs.«115067_j69329362092400_1_alg».proof.Proof.KTerms
import proofs.«115067_j69329362092400_1_alg».proof.Proof.Spec
import proofs.«115067_j69329362092400_1_alg».proof.Proof.RefStages
import Idealize.ShloMosaic.Lib.StableHlo.Run

set_option maxRecDepth 16384

noncomputable section

namespace Cert.KernelIdeal.Fold

open Cert.KernelIdeal Cert.KernelIdeal.Gen Cert.KernelIdeal.Terms
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## After the first stretch -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl

/-- The source words: the edge list's first row, then one self loop per node. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl
/-- The destination words: the edge list's second row, then one self loop per node. -/
theorem W1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp <;> rfl
/-- The edge weights: the product of the two end nodes' inverse square-root degrees. -/
theorem W1_v28 : W1 m ρ c (Proc.devRef .tc main_v28) = Cert.ReferenceIdeal.Read.val_main_v28 (F := Ideal) (m ((c : Thread nD τ).loc main_arg1)) := by
  show StableHlo.after hostOps0 (W0 m ρ c) (Proc.devRef .tc main_v28) = _
  after_results_simp <;> rfl

/-! ## After the first region -/

/-- The first region's output: `x · W1`. -/
theorem W2_v29 : W2 m ρ c (Proc.devRef .tc main_v29)
    = Cert.Gcn.dense (a := 100000) (c := 128) (b := 64) (m ((c : Thread nD τ).loc main_arg0)) (m ((c : Thread nD τ).loc main_arg2)) := by
  refine (W2_arr m ρ c 2).trans ?_
  refine (Cert.KernelIdeal.Regions.array0 (V1 m ρ) c).trans ?_
  show Cert.Gcn.dense (a := 100000) (c := 128) (b := 64) (W1 m ρ c (Proc.devRef .tc main_arg0)) (W1 m ρ c (Proc.devRef .tc main_arg2)) = _
  rw [W1_arg0 m ρ c, W1_arg2 m ρ c]

theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v6 : W2 m ρ c (Proc.devRef .tc main_v6) = Cert.ReferenceIdeal.Read.val_main_v6 (F := Ideal) (m ((c : Thread nD τ).loc main_arg1)) :=
  (W2_of_ne m ρ c main_v6 (by decide)).trans (W1_v6 m ρ c)
theorem W2_v28 : W2 m ρ c (Proc.devRef .tc main_v28) = Cert.ReferenceIdeal.Read.val_main_v28 (F := Ideal) (m ((c : Thread nD τ).loc main_arg1)) :=
  (W2_of_ne m ρ c main_v28 (by decide)).trans (W1_v28 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)

/-! ## After the second stretch -/

/-- The first round of message passing is the reference's, operation for operation. -/
theorem W3_v42 : W3 m ρ c (Proc.devRef .tc main_v42)
    = Cert.ReferenceIdeal.Read.val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  after_results_simp
  rw [W2_v29 m ρ c, W2_v3 m ρ c, W2_v6 m ρ c, W2_v28 m ρ c, ← Cert.ReferenceIdeal.Stages.v29_eq_dense]
  rfl
theorem W3_v44 : W3 m ρ c (Proc.devRef .tc main_v44) = biasRow (m ((c : Thread nD τ).loc main_arg3)) := by
  show StableHlo.after hostOps1 (W2 m ρ c) (Proc.devRef .tc main_v44) = _
  after_results_simp
  rw [W2_arg3 m ρ c]
  rfl
theorem W3_v43 : W3 m ρ c (Proc.devRef .tc main_v43) = wcat (m ((c : Thread nD τ).loc main_arg4)) (m ((c : Thread nD τ).loc main_arg6)) := by
  have h : W3 m ρ c (Proc.devRef .tc main_v43)
      = wcat (W2 m ρ c (Proc.devRef .tc main_arg4)) (W2 m ρ c (Proc.devRef .tc main_arg6)) := by
    show StableHlo.after hostOps1 (W2 m ρ c) (Proc.devRef .tc main_v43) = _
    after_results_simp <;> rfl
  rw [h, W2_arg4 m ρ c, W2_arg6 m ρ c]
theorem W3_v3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp
  exact W2_v3 m ρ c
theorem W3_v6 : W3 m ρ c (Proc.devRef .tc main_v6) = Cert.ReferenceIdeal.Read.val_main_v6 (F := Ideal) (m ((c : Thread nD τ).loc main_arg1)) := by
  show StableHlo.after hostOps1 (W2 m ρ c) (Proc.devRef .tc main_v6) = _
  after_results_simp
  exact W2_v6 m ρ c
theorem W3_v28 : W3 m ρ c (Proc.devRef .tc main_v28) = Cert.ReferenceIdeal.Read.val_main_v28 (F := Ideal) (m ((c : Thread nD τ).loc main_arg1)) := by
  show StableHlo.after hostOps1 (W2 m ρ c) (Proc.devRef .tc main_v28) = _
  after_results_simp
  exact W2_v28 m ρ c
theorem W3_arg5 : W3 m ρ c (Proc.devRef .tc main_arg5) = m ((c : Thread nD τ).loc main_arg5) := by
  show StableHlo.after hostOps1 (W2 m ρ c) (Proc.devRef .tc main_arg5) = _
  after_results_simp
  exact W2_arg5 m ρ c
theorem W3_arg7 : W3 m ρ c (Proc.devRef .tc main_arg7) = m ((c : Thread nD τ).loc main_arg7) := by
  show StableHlo.after hostOps1 (W2 m ρ c) (Proc.devRef .tc main_arg7) = _
  after_results_simp
  exact W2_arg7 m ρ c

/-! ## After the second region -/

/-- The second region's output: the hidden layer's product with the two heads' weights side by side. -/
theorem W4_v45 : W4 m ρ c (Proc.devRef .tc main_v45)
    = Cert.Gcn.reluDense (a := 100000) (c := 64) (b := 64) (Cert.ReferenceIdeal.Read.val_main_v42 (F := Ideal) (m ((c : Thread nD τ).loc main_arg0)) (m ((c : Thread nD τ).loc main_arg1)) (m ((c : Thread nD τ).loc main_arg2)))
        (biasRow (m ((c : Thread nD τ).loc main_arg3))) (wcat (m ((c : Thread nD τ).loc main_arg4)) (m ((c : Thread nD τ).loc main_arg6))) := by
  refine (W4_arr m ρ c 3).trans ?_
  refine (Cert.KernelIdeal.Regions.array1 (V3 m ρ) c).trans ?_
  show Cert.Gcn.reluDense (a := 100000) (c := 64) (b := 64) (W3 m ρ c (Proc.devRef .tc main_v42))
    (W3 m ρ c (Proc.devRef .tc main_v44)) (W3 m ρ c (Proc.devRef .tc main_v43)) = _
  rw [W3_v42 m ρ c, W3_v44 m ρ c, W3_v43 m ρ c]

theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.Read.val_main_v6 (F := Ideal) (m ((c : Thread nD τ).loc main_arg1)) :=
  (W4_of_ne m ρ c main_v6 (by decide)).trans (W3_v6 m ρ c)
theorem W4_v28 : W4 m ρ c (Proc.devRef .tc main_v28) = Cert.ReferenceIdeal.Read.val_main_v28 (F := Ideal) (m ((c : Thread nD τ).loc main_arg1)) :=
  (W4_of_ne m ρ c main_v28 (by decide)).trans (W3_v28 m ρ c)
theorem W4_arg5 : W4 m ρ c (Proc.devRef .tc main_arg5) = m ((c : Thread nD τ).loc main_arg5) :=
  (W4_of_ne m ρ c main_arg5 (by decide)).trans (W3_arg5 m ρ c)
theorem W4_arg7 : W4 m ρ c (Proc.devRef .tc main_arg7) = m ((c : Thread nD τ).loc main_arg7) :=
  (W4_of_ne m ρ c main_arg7 (by decide)).trans (W3_arg7 m ρ c)

/-! ## At the return -/

/-- The hidden layer's product of the launch arrays. -/
abbrev hidden : FVec Ideal S100000x64 .f32 :=
  Cert.Gcn.reluDense (a := 100000) (c := 64) (b := 64) (Cert.ReferenceIdeal.Read.val_main_v42 (F := Ideal) (m ((c : Thread nD τ).loc main_arg0)) (m ((c : Thread nD τ).loc main_arg1)) (m ((c : Thread nD τ).loc main_arg2)))
    (biasRow (m ((c : Thread nD τ).loc main_arg3))) (wcat (m ((c : Thread nD τ).loc main_arg4)) (m ((c : Thread nD τ).loc main_arg6)))

/-- The first result: columns 0…31 of the second round, plus the first head's bias. -/
theorem W5_v62 : W5 m ρ c (Proc.devRef .tc main_v62)
    = headOut ![0, 0] slices_S100000x64_S100000x32_0_0 (hidden m c)
        (Cert.ReferenceIdeal.Read.val_main_v3 (F := Ideal) (m ((c : Thread nD τ).loc main_arg1))) (Cert.ReferenceIdeal.Read.val_main_v6 (F := Ideal) (m ((c : Thread nD τ).loc main_arg1)))
        (Cert.ReferenceIdeal.Read.val_main_v28 (F := Ideal) (m ((c : Thread nD τ).loc main_arg1))) (m ((c : Thread nD τ).loc main_arg5)) := by
  show StableHlo.after hostOps2 (W4 m ρ c) (Proc.devRef .tc main_v62) = _
  after_results_simp
  rw [W4_v45 m ρ c, W4_v3 m ρ c, W4_v6 m ρ c, W4_v28 m ρ c, W4_arg5 m ρ c]
  rfl

/-- The second result: columns 32…63 of the second round, plus the second head's bias. -/
theorem W5_v66 : W5 m ρ c (Proc.devRef .tc main_v66)
    = headOut ![0, 32] slices_S100000x64_S100000x32_0_32 (hidden m c)
        (Cert.ReferenceIdeal.Read.val_main_v3 (F := Ideal) (m ((c : Thread nD τ).loc main_arg1))) (Cert.ReferenceIdeal.Read.val_main_v6 (F := Ideal) (m ((c : Thread nD τ).loc main_arg1)))
        (Cert.ReferenceIdeal.Read.val_main_v28 (F := Ideal) (m ((c : Thread nD τ).loc main_arg1))) (m ((c : Thread nD τ).loc main_arg7)) := by
  show StableHlo.after hostOps2 (W4 m ρ c) (Proc.devRef .tc main_v66) = _
  after_results_simp
  rw [W4_v45 m ρ c, W4_v3 m ρ c, W4_v6 m ρ c, W4_v28 m ρ c, W4_arg7 m ρ c]
  rfl

end Cert.KernelIdeal.Fold

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibPropagate.lean ====
/-
  One round of message passing over an edge list, read at an index.

  A graph's `R` edges are given by two `R × 1` columns of integer words, the source and the destination row of each
  edge, and a length-`R` vector of edge weights. One round takes an `N × C` array of node features, reads for every
  edge the source node's row, scales it by the edge's weight, and accumulates the scaled rows into the destination
  nodes' rows of an `N × C` array. At the exact values the result at `(n, q)` is the accumulator's entry plus the
  sum, over the edges whose destination word names row `n`, of the source row's entry `q` times the edge's weight.
  Column `q` of the result therefore depends on column `q` of the features only: two rounds over the same edges
  whose feature arrays agree on a pair of columns agree on that pair of columns, whatever their widths. No
  finiteness is used: each side is the same finite sum of the same products of extended reals.
-/
import Idealize.ShloMosaic.PureOps.Ideal
import Idealize.ShloMosaic.Lib.ValueIdx
import Idealize.ShloMosaic.Lib.Pipeline.Value
import proofs.«115067_j69329362092400_1_alg».proof.Proof.LibGatherScatter
import proofs.«115067_j69329362092400_1_alg».proof.Proof.LibRowBroadcasts

noncomputable section

open scoped BigOperators

namespace Cert.Lib.Propagate

open Idealize.ShloMosaic Idealize.ShloMosaic.ValueIdx Cert.Lib.GatherScatter

variable {N C C' R w : Nat}

/-- The message of edge `e` at column `q`: the source row's entry times the edge's weight. -/
theorem message_apply (hN : 0 < N)
    (gwf : GatherDims.WF ⟨2, ![N, C]⟩ ⟨2, ![R, 1]⟩ ⟨2, ![R, C]⟩ [1] [0] [] [0] [] 1 ![1, C])
    (hcol : (⟨1, ![R]⟩ : Shape).BroadcastsInDim ⟨2, ![R, 1]⟩ ![0])
    (hwide : (⟨2, ![R, 1]⟩ : Shape).BroadcastsInDim ⟨2, ![R, C]⟩ ![0, 1])
    (feat : FVec Ideal ⟨2, ![N, C]⟩ .f32) (src : IVec ⟨2, ![R, 1]⟩ w) (wgt : FVec Ideal ⟨1, ![R]⟩ .f32)
    (e : Fin R) (q : Fin C) :
    mulf (Host.gather (rowGatherDims N C R gwf) feat src)
        (broadcastInDim ⟨2, ![R, C]⟩ ![0, 1] hwide (broadcastInDim ⟨2, ![R, 1]⟩ ![0] hcol wgt)) (ix2 e q)
      = feat (ix2 (gatherRow hN src e) q) * wgt (ix1 e) := by
  rw [mulf_apply, rowGather_apply hN gwf, Cert.Lib.Rows.dimCol_apply, column_apply]

/-- THE ROUND AT `(n, q)`: the accumulator's entry plus the messages of the edges arriving at `n`. -/
theorem round_apply (hN : 0 < N)
    (gwf : GatherDims.WF ⟨2, ![N, C]⟩ ⟨2, ![R, 1]⟩ ⟨2, ![R, C]⟩ [1] [0] [] [0] [] 1 ![1, C])
    (swf : ScatterDims.WF ⟨2, ![N, C]⟩ ⟨2, ![R, 1]⟩ ⟨2, ![R, C]⟩ [1] [0] [0] 1)
    (hcol : (⟨1, ![R]⟩ : Shape).BroadcastsInDim ⟨2, ![R, 1]⟩ ![0])
    (hwide : (⟨2, ![R, 1]⟩ : Shape).BroadcastsInDim ⟨2, ![R, C]⟩ ![0, 1])
    (acc feat : FVec Ideal ⟨2, ![N, C]⟩ .f32) (src dst : IVec ⟨2, ![R, 1]⟩ w) (wgt : FVec Ideal ⟨1, ![R]⟩ .f32)
    (n : Fin N) (q : Fin C) :
    Host.scatterAdd (rowScatterDims N C R swf) acc dst
        (mulf (Host.gather (rowGatherDims N C R gwf) feat src)
          (broadcastInDim ⟨2, ![R, C]⟩ ![0, 1] hwide (broadcastInDim ⟨2, ![R, 1]⟩ ![0] hcol wgt))) (ix2 n q)
      = acc (ix2 n q) + ∑ e ∈ Finset.univ.filter (fun e => scatterRow N dst e = some n),
          feat (ix2 (gatherRow hN src e) q) * wgt (ix1 e) := by
  rw [rowScatterAdd_apply swf]
  exact congrArg (acc (ix2 n q) + ·)
    (Finset.sum_congr rfl fun e _ => message_apply hN gwf hcol hwide feat src wgt e q)

/-- TWO ROUNDS OVER THE SAME EDGES AGREE ON A PAIR OF COLUMNS on which their accumulators and their feature arrays
    agree: column `q` of a `C`-wide round against column `q'` of a `C'`-wide one. -/
theorem round_congr (hN : 0 < N)
    (gwf : GatherDims.WF ⟨2, ![N, C]⟩ ⟨2, ![R, 1]⟩ ⟨2, ![R, C]⟩ [1] [0] [] [0] [] 1 ![1, C])
    (swf : ScatterDims.WF ⟨2, ![N, C]⟩ ⟨2, ![R, 1]⟩ ⟨2, ![R, C]⟩ [1] [0] [0] 1)
    (hwide : (⟨2, ![R, 1]⟩ : Shape).BroadcastsInDim ⟨2, ![R, C]⟩ ![0, 1])
    (gwf' : GatherDims.WF ⟨2, ![N, C']⟩ ⟨2, ![R, 1]⟩ ⟨2, ![R, C']⟩ [1] [0] [] [0] [] 1 ![1, C'])
    (swf' : ScatterDims.WF ⟨2, ![N, C']⟩ ⟨2, ![R, 1]⟩ ⟨2, ![R, C']⟩ [1] [0] [0] 1)
    (hwide' : (⟨2, ![R, 1]⟩ : Shape).BroadcastsInDim ⟨2, ![R, C']⟩ ![0, 1])
    (hcol : (⟨1, ![R]⟩ : Shape).BroadcastsInDim ⟨2, ![R, 1]⟩ ![0])
    (acc feat : FVec Ideal ⟨2, ![N, C]⟩ .f32) (acc' feat' : FVec Ideal ⟨2, ![N, C']⟩ .f32)
    (src dst : IVec ⟨2, ![R, 1]⟩ w) (wgt : FVec Ideal ⟨1, ![R]⟩ .f32) (n : Fin N) (q : Fin C) (q' : Fin C')
    (hacc : acc (ix2 n q) = acc' (ix2 n q')) (hfeat : ∀ p : Fin N, feat (ix2 p q) = feat' (ix2 p q')) :
    Host.scatterAdd (rowScatterDims N C R swf) acc dst
        (mulf (Host.gather (rowGatherDims N C R gwf) feat src)
          (broadcastInDim ⟨2, ![R, C]⟩ ![0, 1] hwide (broadcastInDim ⟨2, ![R, 1]⟩ ![0] hcol wgt))) (ix2 n q)
      = Host.scatterAdd (rowScatterDims N C' R swf') acc' dst
        (mulf (Host.gather (rowGatherDims N C' R gwf') feat' src)
          (broadcastInDim ⟨2, ![R, C']⟩ ![0, 1] hwide' (broadcastInDim ⟨2, ![R, 1]⟩ ![0] hcol wgt))) (ix2 n q') := by
  rw [round_apply hN gwf swf hcol hwide, round_apply hN gwf' swf' hcol hwide', hacc]
  exact congrArg (acc' (ix2 n q') + ·) (Finset.sum_congr rfl fun e _ => by rw [hfeat])

end Cert.Lib.Propagate

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.Bridge.lean ====
/-
  The two programs compute the same two arrays.

  The kernel multiplies the hidden layer by the two heads' weight matrices side by side — one 64-column product — runs
  one round of message passing over the 64 columns, and slices columns 0…31 and 32…63 out of it; the reference
  multiplies the hidden layer by each head's 32-column matrix and runs one round over each. Column `q` of a product
  depends on column `q` of the right factor only, and column `q` of a round on column `q` of its features only, so the
  kernel's column `q` (or `32 + q`) is the reference's first (or second) head's column `q`: the same finite sums of the
  same products of extended reals, with no use of finiteness. The hidden layer is on both sides
  `max (agg + b1) 0` of the same first round `agg`, and the biases are added by the same operations.
-/
import proofs.«115067_j69329362092400_1_alg».proof.Proof.Gen.ReferenceIdeal.Read
import proofs.«115067_j69329362092400_1_alg».proof.Proof.KTerms
import proofs.«115067_j69329362092400_1_alg».proof.Proof.Spec
import proofs.«115067_j69329362092400_1_alg».proof.Proof.LibPropagate
import proofs.«115067_j69329362092400_1_alg».proof.Proof.LibMergeRows
import Idealize.ShloMosaic.Lib.Pipeline.Value
import Idealize.ShloMosaic.Lib.ValueIdx

noncomputable section

open scoped BigOperators

namespace Cert.Bridge

open Idealize.ShloMosaic Idealize.ShloMosaic.ValueIdx Cert.KernelIdeal.Terms

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x64, .f32⟩ : BufTy).Contents (Elt Ideal))
  (x3 : (⟨Cert.ReferenceIdeal.S64, .f32⟩ : BufTy).Contents (Elt Ideal))
  (x4 x6 : (⟨Cert.ReferenceIdeal.S64x32, .f32⟩ : BufTy).Contents (Elt Ideal))
  (x5 x7 : (⟨Cert.ReferenceIdeal.S32, .f32⟩ : BufTy).Contents (Elt Ideal))

/-- The kernel's hidden layer product: `max (agg + b1) 0 · [W_mu | W_logstd]`, `agg` the first round. -/
abbrev hidden : FVec Ideal Cert.KernelIdeal.S100000x64 .f32 :=
  Cert.Gcn.reluDense (a := 100000) (c := 64) (b := 64) (Cert.ReferenceIdeal.Read.val_main_v42 (F := Ideal) x0 x1 x2) (biasRow x3) (wcat x4 x6)

/-- The reference's hidden layer at `(p, k)`: `max (agg (p, k) + b1 k) 0`. -/
theorem hidden_layer (p : Fin 100000) (k : Fin 64) :
    Cert.ReferenceIdeal.Read.val_main_v46 (F := Ideal) x0 x1 x2 x3 (ix2 p k)
      = max (Cert.ReferenceIdeal.Read.val_main_v42 (F := Ideal) x0 x1 x2 (ix2 p k) + x3 (ix1 k)) (Ideal.ofBits .f32 0x00000000#32) := by
  rw [Cert.ReferenceIdeal.Read.val_main_v46_apply, Cert.ReferenceIdeal.Read.val_main_v45_apply, Cert.ReferenceIdeal.Read.val_main_v44_apply, Cert.ReferenceIdeal.Read.val_main_v43_apply,
    Cert.ReferenceIdeal.Read.val_main_call0_v0_apply, Cert.ReferenceIdeal.Read.val_main_call0_cst_apply]
  have e : Cert.ReferenceIdeal.Read.idx_main_v43 (Cert.ReferenceIdeal.Read.idx_main_v44 (ix2 p k)) = ix1 k :=
    funext fun a => Fin.ext (by match a with | ⟨0, _⟩ => rfl)
  rw [e]
  rfl

/-- The bias row at `(0, k)` is the bias at `k`. -/
theorem biasRow_apply (k : Fin 64) : biasRow x3 (ix2 (0 : Fin 1) k) = x3 (ix1 k) :=
  Cert.Lib.MergeRows.row_apply x3 _ k

/-! ## The first head -/

/-- Column `q` of the side-by-side weights is column `q` of the first head's. -/
theorem wcat_mu (k : Fin 64) (q : Fin 32) :
    wcat x4 x6 (ix2 k (⟨q.val, by omega⟩ : Fin 64)) = x4 (ix2 k q) := by
  unfold wcat
  exact concatenate_pair_apply_left (1 : Fin 2) x4 x6 _ (ix2 k (⟨q.val, by omega⟩ : Fin 64)) rfl (ix2 k q) (fun b => by
    match b with
    | ⟨0, _⟩ => rfl
    | ⟨1, _⟩ => rfl)

/-- Column `q` of the kernel's hidden layer product is column `q` of the reference's first product. -/
theorem hidden_mu (p : Fin 100000) (q : Fin 32) :
    hidden x0 x1 x2 x3 x4 x6 (ix2 p (⟨q.val, by omega⟩ : Fin 64))
      = Cert.ReferenceIdeal.Read.val_main_v47 (F := Ideal) x0 x1 x2 x3 x4 (ix2 p q) := by
  unfold hidden
  rw [Cert.Gcn.reluDense_apply, Cert.ReferenceIdeal.Read.val_main_v47_apply]
  refine Finset.sum_congr rfl fun k _ => ?_
  have el : Cert.ReferenceIdeal.Read.lidx_main_v47 (ix2 p q) k = ix2 p k :=
    funext fun a => Fin.ext (by match a with | ⟨0, _⟩ => rfl | ⟨1, _⟩ => rfl)
  have er : Cert.ReferenceIdeal.Read.ridx_main_v47 (ix2 p q) k = ix2 k q :=
    funext fun a => Fin.ext (by match a with | ⟨0, _⟩ => rfl | ⟨1, _⟩ => rfl)
  rw [el, er, hidden_layer, biasRow_apply, wcat_mu]

/-- Columns `0…31` of the kernel's second round are the reference's first head's round. -/
theorem slice_mu :
    extractStridedSlice Cert.KernelIdeal.S100000x32 ![0, 0]
        (round64 (hidden x0 x1 x2 x3 x4 x6) (Cert.ReferenceIdeal.Read.val_main_v3 (F := Ideal) x1) (Cert.ReferenceIdeal.Read.val_main_v6 (F := Ideal) x1)
          (Cert.ReferenceIdeal.Read.val_main_v28 (F := Ideal) x1))
        Cert.KernelIdeal.Facts₀.slices_S100000x64_S100000x32_0_0
      = Cert.ReferenceIdeal.Read.val_main_v60 (F := Ideal) x0 x1 x2 x3 x4 := by
  funext i
  obtain ⟨n, q, rfl⟩ : ∃ (n : Fin 100000) (q : Fin 32), i = ix2 n q := ⟨i 0, i 1, eq_ix2 i⟩
  refine (extractStridedSlice_apply ![0, 0] _ _ (ix2 n q) (ix2 n (⟨q.val, by omega⟩ : Fin 64)) (fun a => match a with
    | ⟨0, _⟩ => by show n.val = 0 + n.val; omega
    | ⟨1, _⟩ => by show q.val = 0 + q.val; omega)).trans ?_
  exact Cert.Lib.Propagate.round_congr (N := 100000) (C := 64) (C' := 32) (R := 1700000) (w := 32) (by decide)
    Cert.KernelIdeal.Facts₀.gather_S100000x64_S1700000x1_S1700000x64_1_0_n_n_0_1_164_wf
    Cert.KernelIdeal.Facts₀.scatter_S100000x64_S1700000x1_S1700000x64_1_0_0_1_wf
    Cert.KernelIdeal.Facts₀.bcast_S1700000x1_S1700000x64_0_1
    Cert.ReferenceIdeal.Facts₀.gather_S100000x32_S1700000x1_S1700000x32_1_0_n_n_0_1_132_wf
    Cert.ReferenceIdeal.Facts₀.scatter_S100000x32_S1700000x1_S1700000x32_1_0_0_1_wf
    Cert.ReferenceIdeal.Facts₀.bcast_S1700000x1_S1700000x32_0_1
    Cert.KernelIdeal.Facts₀.bcast_S1700000_S1700000x1_0
    (broadcastInDim Cert.KernelIdeal.S100000x64 ![] Cert.KernelIdeal.Facts₀.bcast_S_S100000x64 (constant (F := Ideal) Cert.KernelIdeal.S_ .f32 0x00000000#32))
    (hidden x0 x1 x2 x3 x4 x6)
    (Cert.ReferenceIdeal.Read.val_main_v58 (F := Ideal))
    (Cert.ReferenceIdeal.Read.val_main_v47 (F := Ideal) x0 x1 x2 x3 x4)
    (srcCol (Cert.ReferenceIdeal.Read.val_main_v3 (F := Ideal) x1)) (dstCol (Cert.ReferenceIdeal.Read.val_main_v6 (F := Ideal) x1))
    (Cert.ReferenceIdeal.Read.val_main_v28 (F := Ideal) x1) n (⟨q.val, by omega⟩ : Fin 64) q rfl
    (fun p => hidden_mu x0 x1 x2 x3 x4 x6 p q)

/-- THE FIRST RESULT: the kernel's is the reference's. -/
theorem head_mu :
    headOut ![0, 0] Cert.KernelIdeal.Facts₀.slices_S100000x64_S100000x32_0_0 (hidden x0 x1 x2 x3 x4 x6)
        (Cert.ReferenceIdeal.Read.val_main_v3 (F := Ideal) x1) (Cert.ReferenceIdeal.Read.val_main_v6 (F := Ideal) x1) (Cert.ReferenceIdeal.Read.val_main_v28 (F := Ideal) x1) x5
      = Cert.ReferenceIdeal.Read.val_main_v63 (F := Ideal) x0 x1 x2 x3 x4 x5 := by
  unfold headOut
  rw [slice_mu]
  rfl

/-! ## The second head -/

/-- Column `32 + q` of the side-by-side weights is column `q` of the second head's. -/
theorem wcat_ls (k : Fin 64) (q : Fin 32) :
    wcat x4 x6 (ix2 k (⟨q.val + 32, by omega⟩ : Fin 64)) = x6 (ix2 k q) := by
  unfold wcat
  exact concatenate_pair_apply_right (1 : Fin 2) x4 x6 _ (ix2 k (⟨q.val + 32, by omega⟩ : Fin 64)) rfl rfl (ix2 k q) (fun b hb => by
    match b with
    | ⟨0, _⟩ => rfl
    | ⟨1, _⟩ => exact absurd rfl hb) (by show q.val + 32 = q.val + 32; rfl)

/-- Column `32 + q` of the kernel's hidden layer product is column `q` of the reference's second product. -/
theorem hidden_ls (p : Fin 100000) (q : Fin 32) :
    hidden x0 x1 x2 x3 x4 x6 (ix2 p (⟨q.val + 32, by omega⟩ : Fin 64))
      = Cert.ReferenceIdeal.Read.val_main_v64 (F := Ideal) x0 x1 x2 x3 x6 (ix2 p q) := by
  unfold hidden
  rw [Cert.Gcn.reluDense_apply, Cert.ReferenceIdeal.Read.val_main_v64_apply]
  refine Finset.sum_congr rfl fun k _ => ?_
  have el : Cert.ReferenceIdeal.Read.lidx_main_v64 (ix2 p q) k = ix2 p k :=
    funext fun a => Fin.ext (by match a with | ⟨0, _⟩ => rfl | ⟨1, _⟩ => rfl)
  have er : Cert.ReferenceIdeal.Read.ridx_main_v64 (ix2 p q) k = ix2 k q :=
    funext fun a => Fin.ext (by match a with | ⟨0, _⟩ => rfl | ⟨1, _⟩ => rfl)
  rw [el, er, hidden_layer, biasRow_apply, wcat_ls]

/-- Columns `32…63` of the kernel's second round are the reference's second head's round. -/
theorem slice_ls :
    extractStridedSlice Cert.KernelIdeal.S100000x32 ![0, 32]
        (round64 (hidden x0 x1 x2 x3 x4 x6) (Cert.ReferenceIdeal.Read.val_main_v3 (F := Ideal) x1) (Cert.ReferenceIdeal.Read.val_main_v6 (F := Ideal) x1)
          (Cert.ReferenceIdeal.Read.val_main_v28 (F := Ideal) x1))
        Cert.KernelIdeal.Facts₀.slices_S100000x64_S100000x32_0_32
      = Cert.ReferenceIdeal.Read.val_main_v77 (F := Ideal) x0 x1 x2 x3 x6 := by
  funext i
  obtain ⟨n, q, rfl⟩ : ∃ (n : Fin 100000) (q : Fin 32), i = ix2 n q := ⟨i 0, i 1, eq_ix2 i⟩
  refine (extractStridedSlice_apply ![0, 32] _ _ (ix2 n q) (ix2 n (⟨q.val + 32, by omega⟩ : Fin 64)) (fun a => match a with
    | ⟨0, _⟩ => by show n.val = 0 + n.val; omega
    | ⟨1, _⟩ => by show q.val + 32 = 32 + q.val; omega)).trans ?_
  exact Cert.Lib.Propagate.round_congr (N := 100000) (C := 64) (C' := 32) (R := 1700000) (w := 32) (by decide)
    Cert.KernelIdeal.Facts₀.gather_S100000x64_S1700000x1_S1700000x64_1_0_n_n_0_1_164_wf
    Cert.KernelIdeal.Facts₀.scatter_S100000x64_S1700000x1_S1700000x64_1_0_0_1_wf
    Cert.KernelIdeal.Facts₀.bcast_S1700000x1_S1700000x64_0_1
    Cert.ReferenceIdeal.Facts₀.gather_S100000x32_S1700000x1_S1700000x32_1_0_n_n_0_1_132_wf
    Cert.ReferenceIdeal.Facts₀.scatter_S100000x32_S1700000x1_S1700000x32_1_0_0_1_wf
    Cert.ReferenceIdeal.Facts₀.bcast_S1700000x1_S1700000x32_0_1
    Cert.KernelIdeal.Facts₀.bcast_S1700000_S1700000x1_0
    (broadcastInDim Cert.KernelIdeal.S100000x64 ![] Cert.KernelIdeal.Facts₀.bcast_S_S100000x64 (constant (F := Ideal) Cert.KernelIdeal.S_ .f32 0x00000000#32))
    (hidden x0 x1 x2 x3 x4 x6)
    (Cert.ReferenceIdeal.Read.val_main_v75 (F := Ideal))
    (Cert.ReferenceIdeal.Read.val_main_v64 (F := Ideal) x0 x1 x2 x3 x6)
    (srcCol (Cert.ReferenceIdeal.Read.val_main_v3 (F := Ideal) x1)) (dstCol (Cert.ReferenceIdeal.Read.val_main_v6 (F := Ideal) x1))
    (Cert.ReferenceIdeal.Read.val_main_v28 (F := Ideal) x1) n (⟨q.val + 32, by omega⟩ : Fin 64) q rfl
    (fun p => hidden_ls x0 x1 x2 x3 x4 x6 p q)

/-- THE SECOND RESULT: the kernel's is the reference's. -/
theorem head_ls :
    headOut ![0, 32] Cert.KernelIdeal.Facts₀.slices_S100000x64_S100000x32_0_32 (hidden x0 x1 x2 x3 x4 x6)
        (Cert.ReferenceIdeal.Read.val_main_v3 (F := Ideal) x1) (Cert.ReferenceIdeal.Read.val_main_v6 (F := Ideal) x1) (Cert.ReferenceIdeal.Read.val_main_v28 (F := Ideal) x1) x7
      = Cert.ReferenceIdeal.Read.val_main_v80 (F := Ideal) x0 x1 x2 x3 x6 x7 := by
  unfold headOut
  rw [slice_ls]
  rfl

end Cert.Bridge

end
-- ==== Proof.Claims.lean ====
/-
  The five claims.

  The three frames are the programs' runs with the values dropped. The idealization rewrote no operation, so there is
  nothing to preserve. For the value claim the witness arrays are the kernel's two results as functions of its
  launch arrays: the kernel's run ends at them (the fold through its five segments), and the reference's run ends at
  its own composed terms of its launch arrays, which agree with the kernel's; the two are the same arrays
  (`Cert.Bridge.head_mu`, `head_ls`).
-/
import proofs.«115067_j69329362092400_1_alg».proof.Defs
import proofs.«115067_j69329362092400_1_alg».proof.Proof.Gen.Kernel.Frame
import proofs.«115067_j69329362092400_1_alg».proof.Proof.Gen.KernelIdeal.Frame
import proofs.«115067_j69329362092400_1_alg».proof.Proof.Gen.ReferenceIdeal.Run
import proofs.«115067_j69329362092400_1_alg».proof.Proof.Gen.ReferenceIdeal.Read
import proofs.«115067_j69329362092400_1_alg».proof.Proof.Gen.Pre_finite_inputs
import proofs.«115067_j69329362092400_1_alg».proof.Proof.KRun
import proofs.«115067_j69329362092400_1_alg».proof.Proof.KFold
import proofs.«115067_j69329362092400_1_alg».proof.Proof.Bridge

noncomputable section

namespace Cert.Proof.Claims

open Idealize.ShloMosaic Idealize.ShloMosaic.TcCoe Idealize.SL.Sem Cert.KernelIdeal.Terms

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the same two arrays, element by element, over the extended reals. -/
theorem algebraic : Cert.algebraic_KernelIdeal_ReferenceIdeal := by
  intro m ρ m' ρ' _ hagree
  refine ⟨fun c => headOut ![0, 0] Cert.KernelIdeal.Facts₀.slices_S100000x64_S100000x32_0_0 (Cert.KernelIdeal.Fold.hidden m c)
        (Cert.ReferenceIdeal.Read.val_main_v3 (F := Ideal) (m ((c.tc : Thread Cert.KernelIdeal.nD Cert.KernelIdeal.τ).loc Cert.KernelIdeal.main_arg1))) (Cert.ReferenceIdeal.Read.val_main_v6 (F := Ideal) (m ((c.tc : Thread Cert.KernelIdeal.nD Cert.KernelIdeal.τ).loc Cert.KernelIdeal.main_arg1)))
        (Cert.ReferenceIdeal.Read.val_main_v28 (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg5)),
      fun c => headOut ![0, 32] Cert.KernelIdeal.Facts₀.slices_S100000x64_S100000x32_0_32 (Cert.KernelIdeal.Fold.hidden m c)
        (Cert.ReferenceIdeal.Read.val_main_v3 (F := Ideal) (m ((c.tc : Thread Cert.KernelIdeal.nD Cert.KernelIdeal.τ).loc Cert.KernelIdeal.main_arg1))) (Cert.ReferenceIdeal.Read.val_main_v6 (F := Ideal) (m ((c.tc : Thread Cert.KernelIdeal.nD Cert.KernelIdeal.τ).loc Cert.KernelIdeal.main_arg1)))
        (Cert.ReferenceIdeal.Read.val_main_v28 (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W5_v62 m ρ c),
        (h c).2.1.trans (Cert.KernelIdeal.Fold.W5_v66 m ρ c), (h c).2.2⟩)
      (Cert.KernelIdeal.Results.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.ReferenceIdeal.Read.val_main_v63_eq m' c).trans ?_
      rw [(hagree c).1, (hagree c).2.1, (hagree c).2.2.1, (hagree c).2.2.2.1, (hagree c).2.2.2.2.1,
        (hagree c).2.2.2.2.2.1]
      exact (Cert.Bridge.head_mu _ _ _ _ _ _ _).symm
    · refine (Cert.ReferenceIdeal.Read.val_main_v80_eq m' c).trans ?_
      rw [(hagree c).1, (hagree c).2.1, (hagree c).2.2.1, (hagree c).2.2.2.1, (hagree c).2.2.2.2.2.2.1,
        (hagree c).2.2.2.2.2.2.2]
      exact (Cert.Bridge.head_ls _ _ _ _ _ _ _).symm

end Cert.Proof.Claims

end
-- ==== Proof.lean ====
/-
  A two-layer graph convolution network with two output heads, as a kernel and as its reference.

  Both programs build the same edge list (the given edges and one self loop per node), the same edge weights (the
  product of the two end nodes' inverse square-root degrees) and the same first layer: `x · W1`, one round of message
  passing, the bias, `max · 0`. The kernel computes the two products in two tiled regions, the second against the two
  heads' weight matrices side by side, and slices the two heads out of one 64-column round of message passing; the
  reference does one 32-column product and one round per head. Matrix products, rounds of message passing and
  column slices act column by column, so the two programs end with the same arrays of extended reals: the same
  finite sums of the same products. Finiteness of the inputs is not used.
-/
import proofs.«115067_j69329362092400_1_alg».proof.Defs
import proofs.«115067_j69329362092400_1_alg».proof.Proof.Gen.Kernel
import proofs.«115067_j69329362092400_1_alg».proof.Proof.Gen.KernelIdeal
import proofs.«115067_j69329362092400_1_alg».proof.Proof.Gen.ReferenceIdeal
import proofs.«115067_j69329362092400_1_alg».proof.Proof.Gen.Pre_finite_inputs
import proofs.«115067_j69329362092400_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
